-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x128 .f32) (main_arg8 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S20000x128 : Shape := ⟨2, ![20000, 128]⟩

abbrev nBuf : Space → Nat
  | .hbm => 14
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S100000x128, .f32⟩
  | .local _ .vmem, ⟨0, _⟩ => ⟨S20000x128, .f32⟩
  | .local _ .vmem, ⟨1, _⟩ => ⟨S20000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S20000x128, .f32⟩
  | .local _ .vmem, ⟨11, _⟩ => ⟨S20000x128, .f32⟩
  | .local _ .vmem, ⟨12, _⟩ => ⟨S128x128, .f32⟩
  | .local _ .vmem, ⟨13, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S20000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S20000x128_S20000x128_0_0 : ∀ a, (![0, 0] : Fin 2 → Nat) a + S20000x128.size a ≤ S20000x128.size a
  h_S20000x128 : 0 < S20000x128.numel
  broadcasts_S1x128_S20000x128 : S1x128.Broadcasts S20000x128
  dot_S128x128_S128x128_S128x128_1_0_0_1_n_n_wf : DotDims.WF S128x128 S128x128 S128x128 [1] [0] [0] [1] [] []
  dot_S1x128_S128x128_S1x128_1_1_0_0_n_n_wf : DotDims.WF S1x128 S128x128 S1x128 [1] [1] [0] [0] [] []
  dot_S20000x128_S128x128_S20000x128_1_1_0_0_n_n_wf : DotDims.WF S20000x128 S128x128 S20000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S20000x128.size a ≤ S100000x128.size a
  hwx0_9 : ∀ i : grid0.Coords, EltTy.bits .f32 = 32 ∨ (Rect.block (s := S100000x128) S20000x128.size (cc0_transform_9 i) (hinb0_9 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S20000x128_S128x128_S20000x128_1_1_0_0_n_n : DotDims S20000x128 S128x128 S20000x128 where
  lhsContracting := [1]
  rhsContracting := [1]
  lhsNonContracting := [0]
  rhsNonContracting := [0]
  lhsBatch := []
  rhsBatch := []
  wf := dot_S20000x128_S128x128_S20000x128_1_1_0_0_n_n_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S20000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S128x128, .f32⟩
  | .hbm, ⟨18, _⟩ => ⟨S100000x128, .f32⟩
  | .hbm, ⟨19, _⟩ => ⟨S1x128, .f32⟩
  | .hbm, ⟨20, _⟩ => ⟨S100000x128, .f32⟩
  | .hbm, ⟨21, _⟩ => ⟨S100000x128, .f32⟩
  | .hbm, ⟨22, _⟩ => ⟨S128x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibFiniteReal.lean ====
/-
  Extended reals that are real numbers, and the operations that keep them so.

  At the ideal instance a float is an extended real. A law of real arithmetic (cancelling, moving a term across a
  difference) may fail at an infinity, so a value proof that needs one first shows that the numbers it speaks of are
  real. This file has the predicate (`IsReal`, and `AllReal` for an array), its closure under sums, products, maxima,
  finite sums and finite maxima, and the array operations that preserve it: every re-indexing (a gather, a broadcast,
  a transpose, a reshape, a slice: each result element IS an operand element), the pointwise product and sum, the
  host's accumulating scatter (an operand element plus a finite sum of update elements), and both matrix products
  (a finite sum of products).
-/
import Idealize.ShloMosaic.PureOps.Ideal
import Idealize.ShloMosaic.PureOps.Ideal.Laws

noncomputable section

open scoped BigOperators

namespace Cert.Lib.FiniteReal

open Idealize.ShloMosaic

/-- An extended real that is a real number: neither infinity. -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ ha hb => ha.add hb) IsReal.zero h

/-- The coercion commutes with a finite sum. -/
theorem coe_sum {ι : Type*} (s : Finset ι) (g : ι → ℝ) : ∑ i ∈ s, ((g i : ℝ) : EReal) = ((∑ i ∈ s, g i : ℝ) : EReal) := by
  classical
  refine Finset.induction_on s (by simp) ?_
  intro a s ha ih
  rw [Finset.sum_insert ha, Finset.sum_insert ha, ih, EReal.coe_add]

/-- The maximum, started from −∞, of finitely many reals — at least one — is a real. -/
theorem IsReal.fold_max {ι : Type*} (s : Finset ι) (hs : s.Nonempty) (f : ι → EReal) (h : ∀ i ∈ s, IsReal (f i)) :
    IsReal (s.fold Max.max ⊥ f) := by
  classical
  have key : ∀ t : Finset ι, (∀ i ∈ t, IsReal (f i)) → (t = ∅ ∧ t.fold Max.max ⊥ f = ⊥) ∨ IsReal (t.fold Max.max ⊥ f) := by
    intro t
    refine Finset.induction_on t (fun _ => Or.inl ⟨rfl, Finset.fold_empty⟩) ?_
    intro a u ha ih hu
    right
    rw [Finset.fold_insert ha]
    rcases ih (fun i hi => hu i (Finset.mem_insert_of_mem hi)) with ⟨_, hb⟩ | hr
    · rw [hb, max_eq_left bot_le]; exact hu a (Finset.mem_insert_self a u)
    · exact (hu a (Finset.mem_insert_self a u)).max hr
  rcases key s h with ⟨he, _⟩ | hr
  · exact absurd he hs.ne_empty
  · exact hr

/-! ## Arrays -/

/-- Every entry of the array is a real. -/
def AllReal {α : Type*} (v : α → EReal) : Prop := ∀ a, IsReal (v a)

/-- An array of reals is the coercion of a real-valued array. -/
theorem AllReal.exists_real {α : Type*} {v : α → EReal} (h : AllReal v) : ∃ g : α → ℝ, v = fun a => ((g a : ℝ) : EReal) :=
  ⟨fun a => (h a).choose, funext fun a => (h a).choose_spec⟩

/-- A re-indexing of an array of reals is an array of reals. -/
theorem AllReal.comp {α β : Type*} {v : α → EReal} (h : AllReal v) (e : β → α) : AllReal (fun b => v (e b)) := fun b => h (e b)

variable {s t : Shape}

theorem allReal_gather {si : Shape} {w : Nat} (d : GatherDims s si t) (x : s.Idx → EReal) (idx : IVec si w) (h : AllReal x) :
    AllReal (Host.gather d x idx) := fun j => h _

theorem allReal_broadcastInDim (dims : Fin s.rank → Fin t.rank) (hb : s.BroadcastsInDim t dims) (x : s.Idx → EReal)
    (h : AllReal x) : AllReal (broadcastInDim t dims hb x) := fun j => h _

theorem allReal_broadcastTo (hb : s.Broadcasts t) (x : s.Idx → EReal) (h : AllReal x) : AllReal (broadcastTo t x hb) :=
  fun j => h _

theorem allReal_shapeCast (hc : s.ShapeCasts t) (x : s.Idx → EReal) (h : AllReal x) : AllReal (shapeCast t x hc) :=
  fun j => h _

theorem allReal_transpose (perm : List (Fin s.rank)) (ht : s.Transposes perm t) (x : s.Idx → EReal) (h : AllReal x) :
    AllReal (transpose t perm x ht) := by
  intro j; unfold transpose; exact h _

theorem allReal_constant_zero {φ : FTy} : AllReal (constant (F := Ideal) s .f32 0x00000000#32) := fun _ => by
  show IsReal (Ideal.ofBits .f32 0x00000000#32)
  rw [Ideal.ofBits_zero_f32]; exact IsReal.zero

theorem allReal_mulf {φ : FTy} (x y : FVec Ideal s φ) (hx : AllReal x) (hy : AllReal y) : AllReal (mulf x y) :=
  fun i => (hx i).mul (hy i)

theorem allReal_addf {φ : FTy} (x y : FVec Ideal s φ) (hx : AllReal x) (hy : AllReal y) : AllReal (addf x y) :=
  fun i => (hx i).add (hy i)

theorem allReal_maximumf {φ : FTy} (x y : FVec Ideal s φ) (hx : AllReal x) (hy : AllReal y) : AllReal (maximumf x y) :=
  fun i => (hx i).max (hy i)

/-- The host's accumulating scatter of real updates into a real operand: each element is the operand's plus a finite
    sum of updates. -/
theorem allReal_scatterAdd {si u : Shape} {w : Nat} {φ : FTy} (d : ScatterDims s si u) (x : FVec Ideal s φ) (idx : IVec si w)
    (upd : FVec Ideal u φ) (hx : AllReal x) (hu : AllReal upd) : AllReal (Host.scatterAdd d x idx upd) := by
  intro i
  unfold Host.scatterAdd
  rw [Ideal.hostScatterAdd_def]
  unfold Ideal.hostScatterAdd
  exact (hx i).add (IsReal.sum _ _ fun j _ => hu j)

/-- The host's matrix product of real operands. -/
theorem allReal_dotGeneral {sl sr so : Shape} {φ₁ φ₂ : FTy} (d : DotDims sl sr so) (prec : Option ContractPrecision)
    (lhs : FVec Ideal sl φ₁) (rhs : FVec Ideal sr φ₂) (hl : AllReal lhs) (hr : AllReal rhs) :
    AllReal (Host.dotGeneral d prec lhs rhs) := by
  intro j
  unfold Host.dotGeneral
  rw [Ideal.dotGeneral_apply]
  exact IsReal.sum _ _ fun k _ => (hl _).mul (hr _)

end Cert.Lib.FiniteReal

end
-- ==== Proof.Spec.lean ====
/-
  The four-layer affine chain, one row at a time, and its fused form.

  A row `x` of 128 features goes through  relu (x·Ws0ᵀ + bs0),  then  ·Wt0ᵀ + bt0,  then  relu (·Ws1ᵀ + bs1),  then
  ·Wt1ᵀ + bt1  (`chain`).  Between the second and the third layer there is no nonlinearity, so the two affine maps
  compose into one:  (h·Wt0ᵀ + bt0)·Ws1ᵀ + bs1 = h·(Ws1·Wt0)ᵀ + (bt0·Ws1ᵀ + bs1)  (`fused`, with the composed matrix
  `wmid` and the composed bias `bmid`).  The identity distributes a product over a sum and exchanges two finite sums;
  on the extended reals that is only valid when no term is infinite, so it is stated for arrays whose entries are
  real numbers, and proved by moving to ℝ.
-/
import Idealize.ShloMosaic.PureOps.Ideal
import Idealize.ShloMosaic.Lib.ValueIdx
import proofs.«124410_g78271484003207_cont_sun_c4_201_22_alg».proof.Proof.LibFiniteReal

noncomputable section

open scoped BigOperators

namespace Cert.Spec

open Idealize.ShloMosaic Idealize.ShloMosaic.ValueIdx Cert.Lib.FiniteReal

/-- A 128 × 128 weight matrix, a 128-vector of biases, the 100000 × 128 array of rows. -/
abbrev Mat := (⟨2, ![128, 128]⟩ : Shape).Idx → EReal
abbrev Bias := (⟨1, ![128]⟩ : Shape).Idx → EReal
abbrev Rows := (⟨2, ![100000, 128]⟩ : Shape).Idx → EReal

/-- One affine layer at output feature `q`: the row against row `q` of the weight matrix, plus the bias. -/
def lin (x : Fin 128 → EReal) (W : Mat) (b : Bias) (q : Fin 128) : EReal :=
  (∑ k : Fin 128, x k * W (ix2 q k)) + b (ix1 q)

/-- The rectifier. -/
def relu (x : EReal) : EReal := max x 0

/-- The composed matrix Ws1 · Wt0 at (k, l). -/
def wmid (Ws1 Wt0 : Mat) (k l : Fin 128) : EReal := ∑ j : Fin 128, Ws1 (ix2 k j) * Wt0 (ix2 j l)

/-- The composed bias bt0 · Ws1ᵀ + bs1 at k. -/
def bmid (bt0 : Bias) (Ws1 : Mat) (bs1 : Bias) (k : Fin 128) : EReal :=
  (∑ j : Fin 128, bt0 (ix1 j) * Ws1 (ix2 k j)) + bs1 (ix1 k)

/-- The composed middle layer at output feature `k`: the row against the composed matrix, plus the composed bias. -/
def midlin (h : Fin 128 → EReal) (Ws1 Wt0 : Mat) (bt0 bs1 : Bias) (k : Fin 128) : EReal :=
  (∑ l : Fin 128, h l * wmid Ws1 Wt0 k l) + bmid bt0 Ws1 bs1 k

/-- The chain as the reference computes it: four affine layers, a rectifier after the first and the third. -/
def chain (x : Fin 128 → EReal) (Ws0 : Mat) (bs0 : Bias) (Wt0 : Mat) (bt0 : Bias) (Ws1 : Mat) (bs1 : Bias) (Wt1 : Mat)
    (bt1 : Bias) : Fin 128 → EReal :=
  lin (fun k => relu (lin (lin (fun l => relu (lin x Ws0 bs0 l)) Wt0 bt0) Ws1 bs1 k)) Wt1 bt1

/-- The chain with the two middle layers composed into one. -/
def fused (x : Fin 128 → EReal) (Ws0 : Mat) (bs0 : Bias) (Wt0 : Mat) (bt0 : Bias) (Ws1 : Mat) (bs1 : Bias) (Wt1 : Mat)
    (bt1 : Bias) : Fin 128 → EReal :=
  lin (fun k => relu (midlin (fun l => relu (lin x Ws0 bs0 l)) Ws1 Wt0 bt0 bs1 k)) Wt1 bt1

/-- The whole result: row `n` of the output is the chain of row `n` of the input. -/
def result (t : Rows) (Ws0 : Mat) (bs0 : Bias) (Wt0 : Mat) (bt0 : Bias) (Ws1 : Mat) (bs1 : Bias) (Wt1 : Mat) (bt1 : Bias) :
    Rows :=
  fun i => chain (fun p => t (ix2 (i 0) p)) Ws0 bs0 Wt0 bt0 Ws1 bs1 Wt1 bt1 (i 1)

theorem result_apply (t : Rows) (Ws0 : Mat) (bs0 : Bias) (Wt0 : Mat) (bt0 : Bias) (Ws1 : Mat) (bs1 : Bias) (Wt1 : Mat)
    (bt1 : Bias) (n : Fin 100000) (q : Fin 128) :
    result t Ws0 bs0 Wt0 bt0 Ws1 bs1 Wt1 bt1 (ix2 n q)
      = chain (fun p => t (ix2 n p)) Ws0 bs0 Wt0 bt0 Ws1 bs1 Wt1 bt1 q := rfl

/-- The whole result with the fused chain in every row: what the kernel computes. -/
def fusedResult (t : Rows) (Ws0 : Mat) (bs0 : Bias) (Wt0 : Mat) (bt0 : Bias) (Ws1 : Mat) (bs1 : Bias) (Wt1 : Mat)
    (bt1 : Bias) : Rows :=
  fun i => fused (fun p => t (ix2 (i 0) p)) Ws0 bs0 Wt0 bt0 Ws1 bs1 Wt1 bt1 (i 1)

/-! ## Composing the two middle layers, over ℝ and then on real entries of the extended reals -/

/-- Over ℝ: Σ_l h_l (Σ_j S_j A_jl) + (Σ_j b_j S_j + c) = Σ_j (Σ_l h_l A_jl + b_j) S_j + c. -/
theorem compose_real {ι κ : Type*} [Fintype ι] [Fintype κ] (h : ι → ℝ) (A : κ → ι → ℝ) (b S : κ → ℝ) (c : ℝ) :
    (∑ l, h l * ∑ j, S j * A j l) + ((∑ j, b j * S j) + c) = (∑ j, ((∑ l, h l * A j l) + b j) * S j) + c := by
  have e : ∑ l, h l * ∑ j, S j * A j l = ∑ j, (∑ l, h l * A j l) * S j := by
    simp only [Finset.mul_sum, Finset.sum_mul]
    rw [Finset.sum_comm]
    exact Finset.sum_congr rfl fun j _ => Finset.sum_congr rfl fun l _ => by ring
  rw [e]
  simp only [add_mul, Finset.sum_add_distrib]
  ring

/-- The same identity between extended reals that are coercions of reals. -/
theorem compose_coe {ι κ : Type*} [Fintype ι] [Fintype κ] (h : ι → ℝ) (A : κ → ι → ℝ) (b S : κ → ℝ) (c : ℝ) :
    (∑ l, (h l : EReal) * ∑ j, (S j : EReal) * (A j l : EReal)) + ((∑ j, (b j : EReal) * (S j : EReal)) + (c : EReal))
      = (∑ j, ((∑ l, (h l : EReal) * (A j l : EReal)) + (b j : EReal)) * (S j : EReal)) + (c : EReal) := by
  simp only [← EReal.coe_mul, coe_sum, ← EReal.coe_add]
  exact congrArg _ (compose_real h A b S c)

/-- The composed middle layer IS the two layers one after the other, when every entry involved is a real number. -/
theorem midlin_eq (h : Fin 128 → EReal) (Ws1 Wt0 : Mat) (bt0 bs1 : Bias) (hh : AllReal h) (hWs1 : AllReal Ws1)
    (hWt0 : AllReal Wt0) (hbt0 : AllReal bt0) (hbs1 : AllReal bs1) :
    midlin h Ws1 Wt0 bt0 bs1 = lin (lin h Wt0 bt0) Ws1 bs1 := by
  obtain ⟨h', rfl⟩ := hh.exists_real
  obtain ⟨S, rfl⟩ := hWs1.exists_real
  obtain ⟨A, rfl⟩ := hWt0.exists_real
  obtain ⟨b, rfl⟩ := hbt0.exists_real
  obtain ⟨c, rfl⟩ := hbs1.exists_real
  funext k
  exact compose_coe h' (fun j l => A (ix2 j l)) (fun j => b (ix1 j)) (fun j => S (ix2 k j)) (c (ix1 k))

/-- A rectified affine layer of a real row with real weights is real. -/
theorem allReal_relu_lin (x : Fin 128 → EReal) (W : Mat) (b : Bias) (hx : AllReal x) (hW : AllReal W) (hb : AllReal b) :
    AllReal (fun l => relu (lin x W b l)) := fun l =>
  ((IsReal.sum _ _ fun k _ => (hx k).mul (hW _)).add (hb _)).max IsReal.zero

/-- THE LAW that joins the two programs: on real inputs the fused chain is the chain. -/
theorem fused_eq_chain (x : Fin 128 → EReal) (Ws0 : Mat) (bs0 : Bias) (Wt0 : Mat) (bt0 : Bias) (Ws1 : Mat) (bs1 : Bias)
    (Wt1 : Mat) (bt1 : Bias) (hx : AllReal x) (hWs0 : AllReal Ws0) (hbs0 : AllReal bs0) (hWt0 : AllReal Wt0)
    (hbt0 : AllReal bt0) (hWs1 : AllReal Ws1) (hbs1 : AllReal bs1) :
    fused x Ws0 bs0 Wt0 bt0 Ws1 bs1 Wt1 bt1 = chain x Ws0 bs0 Wt0 bt0 Ws1 bs1 Wt1 bt1 := by
  unfold fused chain
  rw [midlin_eq _ Ws1 Wt0 bt0 bs1 (allReal_relu_lin x Ws0 bs0 hx hWs0 hbs0) hWs1 hWt0 hbt0 hbs1]

/-- So on real inputs the two whole-array functions agree. -/
theorem fusedResult_eq_result (t : Rows) (Ws0 : Mat) (bs0 : Bias) (Wt0 : Mat) (bt0 : Bias) (Ws1 : Mat) (bs1 : Bias)
    (Wt1 : Mat) (bt1 : Bias) (ht : AllReal t) (hWs0 : AllReal Ws0) (hbs0 : AllReal bs0) (hWt0 : AllReal Wt0)
    (hbt0 : AllReal bt0) (hWs1 : AllReal Ws1) (hbs1 : AllReal bs1) :
    fusedResult t Ws0 bs0 Wt0 bt0 Ws1 bs1 Wt1 bt1 = result t Ws0 bs0 Wt0 bt0 Ws1 bs1 Wt1 bt1 :=
  funext fun i => congrFun (fused_eq_chain (fun p => t (ix2 (i 0) p)) Ws0 bs0 Wt0 bt0 Ws1 bs1 Wt1 bt1
    (fun p => ht _) hWs0 hbs0 hWt0 hbt0 hWs1 hbs1) (i 1)

end Cert.Spec

end
-- ==== Proof.RefValue.lean ====
/-
  The reference computes the chain, row by row.

  Each of the reference's four layers is a matrix product of the running [100000, 128] array with a transposed weight
  matrix, plus a bias broadcast over the rows; read at (n, q) that is the affine layer `Spec.lin` of row `n` at output
  feature `q`.  A maximum with the broadcast zero is the rectifier at every entry.  So the reference's result at
  (n, q) is `Spec.chain` of row `n` of the input at `q`: the array `Spec.result`.
-/
import proofs.«124410_g78271484003207_cont_sun_c4_201_22_alg».proof.Proof.Gen.ReferenceIdeal.Read
import proofs.«124410_g78271484003207_cont_sun_c4_201_22_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Spec

/-- One layer of the reference — the product with the transposed weights plus the broadcast bias — at (n, q). -/
theorem layer_apply (y : FVec Ideal S100000x128 .f32) (W : FVec Ideal S128x128 .f32)
    (b : FVec Ideal S128 .f32) (n : Fin 100000) (q : Fin 128) :
    val_main_v4 (F := Ideal) y W b (ix2 n q) = lin (fun p => y (ix2 n p)) W b q := by
  have el : ∀ k : Fin 128, lidx_main_v1 (ix2 n q) k = ix2 n k := fun k => funext fun a => by
    match a with
    | ⟨0, _⟩ => rfl
    | ⟨1, _⟩ => rfl
  have er : ∀ k : Fin 128, idx_main_v0 (ridx_main_v1 (ix2 n q) k) = ix2 q k := fun k => funext fun a => by
    match a with
    | ⟨0, _⟩ => rfl
    | ⟨1, _⟩ => rfl
  have eb : idx_main_v2 (idx_main_v3 (ix2 n q)) = ix1 q := funext fun a => by
    match a with
    | ⟨0, _⟩ => rfl
  rw [val_main_v4_apply, val_main_v1_apply, val_main_v3_apply, val_main_v2_apply, eb]
  simp only [val_main_v0_apply, el, er]
  rfl

/-- The reference's rectifier: the maximum with the broadcast zero. -/
def rectH (y : FVec Ideal S100000x128 .f32) : FVec Ideal S100000x128 .f32 :=
  maximumf y (val_main_v5 (F := Ideal))

/-- It is the rectifier at every entry. -/
theorem rectH_apply (y : FVec Ideal S100000x128 .f32) (i : S100000x128.Idx) : rectH y i = relu (y i) := by
  show max (y i) (val_main_v5 (F := Ideal) i) = max (y i) 0
  rw [val_main_v5_apply, val_main_cst_apply]
  show max (y i) (Ideal.ofBits .f32 0x00000000#32) = max (y i) 0
  rw [Ideal.ofBits_zero_f32]

/-- The reference's result is the chain of every row. -/
theorem reference_eq (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S128, .f32⟩ : BufTy).Contents (Elt Ideal)) :
    val_main_v23 (F := Ideal) x0 x1 x2 x3 x4 x5 x6 x7 x8 = result x0 x1 x2 x3 x4 x5 x6 x7 x8 := by
  funext i
  obtain ⟨n, q, rfl⟩ : ∃ (n : Fin 100000) (q : Fin 128), i = ix2 n q := ⟨i 0, i 1, eq_ix2 i⟩
  show val_main_v4 (F := Ideal) (rectH (val_main_v4 (F := Ideal) (val_main_v4 (F := Ideal)
    (rectH (val_main_v4 (F := Ideal) x0 x1 x2)) x3 x4) x5 x6)) x7 x8 (ix2 n q) = _
  simp only [layer_apply, rectH_apply]
  rfl

end Cert.ReferenceIdeal.RefValue

end
-- ==== Proof.Pieces.lean ====
/-
  What one run of the kernel body leaves behind, as values.

  At the first grid point the body first computes the composed matrix (its first payload, of the Ws1 and Wt0 blocks)
  and the composed bias (its second payload, of the bt0, Ws1 and bs1 blocks) into its two scratch buffers, then reads
  both back and stores the output block: the third payload of the input block, the first-layer weights, the two
  scratch contents and the last-layer weights.  At every later point it stores only the output block, the same
  payload over whatever the scratch buffers held when the point began.  Every load and store goes through the whole
  buffer at zero offsets, so each buffer's final contents is the one payload stored into it.
-/
import proofs.«124410_g78271484003207_cont_sun_c4_201_22_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First point: the first scratch ends holding the composed matrix, the first payload of the Ws1 and Wt0 blocks. -/
theorem scratch0_first (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S20000x128 .f32) (harg10 : arg10.IsWhole) (arg11 : Memref sig .tc .vmem S128x128 .f32) (harg11 : arg11.IsWhole) (arg12 : Memref sig .tc .vmem S1x128 .f32) (harg12 : arg12.IsWhole) (hc0 : cond0_0 i) (x0 : Vec F S20000x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S128x128 .f32) (x8 : Vec F S1x128 .f32) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay1 x5 x3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz]
  simp only [View.readAt_eq_ld, harg6.read_unread, harg4.read_unread, View.ld_unit_zero (S := S128x128) hz]

/-- First point: the second scratch ends holding the composed bias, the second payload of the bt0, Ws1 and bs1 blocks. -/
theorem scratch1_first (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S20000x128 .f32) (harg10 : arg10.IsWhole) (arg11 : Memref sig .tc .vmem S128x128 .f32) (harg11 : arg11.IsWhole) (arg12 : Memref sig .tc .vmem S1x128 .f32) (harg12 : arg12.IsWhole) (hc0 : cond0_0 i) (x0 : Vec F S20000x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S128x128 .f32) (x8 : Vec F S1x128 .f32) :
    sout0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay2 x4 x5 x6 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz]
  simp only [View.readAt_eq_ld, harg5.read_unread, harg6.read_unread, harg7.read_unread,
    View.ld_unit_zero (S := S128x128) hz, View.ld_unit_zero (S := S1x128) hz]

/-- First point: the output block is the third payload over the two scratch contents just computed. -/
theorem out_first (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S20000x128 .f32) (harg10 : arg10.IsWhole) (arg11 : Memref sig .tc .vmem S128x128 .f32) (harg11 : arg11.IsWhole) (arg12 : Memref sig .tc .vmem S1x128 .f32) (harg12 : arg12.IsWhole) (hc0 : cond0_0 i) (x0 : Vec F S20000x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S128x128 .f32) (x8 : Vec F S1x128 .f32) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = k0_pay3 x0 x1 x2 (k0_pay1 x5 x3) (k0_pay2 x4 x5 x6) x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun0_A
  dsimp only
  sl_unfold_words
  rw [View.canon_unit_zero hz, View.readCov_unit_zero (S := S128x128) _ hz, View.readCov_unit_zero (S := S1x128) _ hz]
  simp only [View.readAt_eq_ld, harg1.read_unread, harg2.read_unread, harg3.read_unread, harg4.read_unread,
    harg5.read_unread, harg6.read_unread, harg7.read_unread, harg8.read_unread, harg9.read_unread,
    View.ld_unit_zero (S := S20000x128) hz, View.ld_unit_zero (S := S128x128) hz, View.ld_unit_zero (S := S1x128) hz]

/-- A later point: the output block is the third payload over what the scratch buffers held on entry. -/
theorem out_later (c : Dev nD) (i : grid0.Coords) (arg1 : Memref sig .tc .vmem S20000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S20000x128 .f32) (harg10 : arg10.IsWhole) (arg11 : Memref sig .tc .vmem S128x128 .f32) (harg11 : arg11.IsWhole) (arg12 : Memref sig .tc .vmem S1x128 .f32) (harg12 : arg12.IsWhole) (hc0 : ¬cond0_0 i) (x0 : Vec F S20000x128 .f32) (x1 : Vec F S128x128 .f32) (x2 : Vec F S1x128 .f32) (x3 : Vec F S128x128 .f32) (x4 : Vec F S1x128 .f32) (x5 : Vec F S128x128 .f32) (x6 : Vec F S1x128 .f32) (x7 : Vec F S128x128 .f32) (x8 : Vec F S1x128 .f32) (xs0 : Vec F S128x128 .f32) (xs1 : Vec F S1x128 .f32) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 xs1 = k0_pay3 x0 x1 x2 xs0 xs1 x7 x8 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xs0 xs1)]
  unfold kernelRun0_B
  dsimp only
  sl_unfold_words
  rw [View.canon_unit_zero hz]
  simp only [View.readAt_eq_ld, harg1.read_unread, harg2.read_unread, harg3.read_unread, harg8.read_unread,
    harg9.read_unread, harg11.read_unread, harg12.read_unread,
    View.ld_unit_zero (S := S20000x128) hz, View.ld_unit_zero (S := S128x128) hz, View.ld_unit_zero (S := S1x128) hz]

end Cert.KernelIdeal.Pieces

end
-- ==== Proof.LibDotTransposed.lean ====
/-
  A matrix product against a transposed right operand, read at an entry.

  When an [M, K] operand is contracted with an [N, K] operand along the SECOND axis of each — the product A · Bᵀ
  written without forming the transpose — the entry (i, j) of the [M, N] result is the sum over k of A (i, k) times
  B (j, k). The contraction's own index type is re-indexed by its one coordinate; the four coordinate facts about the
  dimension numbers are hypotheses, each a computation at literal dimension numbers.
-/
import Idealize.ShloMosaic.PureOps.Ideal
import Idealize.ShloMosaic.Lib.ValueIdx

noncomputable section

open scoped BigOperators

namespace Cert.Lib.DotTransposed

open Idealize.ShloMosaic Idealize.ShloMosaic.ValueIdx

/-- A contraction of an [M, K] by an [N, K] operand along both second axes, at (i, j): the sum over k of
    left (i, k) times right (j, k). -/
theorem dot_sum_nt {M K N : Nat} (d : DotDims ⟨2, ![M, K]⟩ ⟨2, ![N, K]⟩ ⟨2, ![M, N]⟩) (hr : d.contr.rank = 1)
    (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (lhs : (⟨2, ![M, K]⟩ : Shape).Idx → EReal) (rhs : (⟨2, ![N, K]⟩ : Shape).Idx → EReal) (i : Fin M) (j : Fin N) :
    ∑ k : d.contr.Idx, lhs (d.lhsIdx (ix2 i j) k) * rhs (d.rhsIdx (ix2 i j) k) = ∑ k : Fin K, lhs (ix2 i k) * rhs (ix2 j k) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

end Cert.Lib.DotTransposed

end
-- ==== Proof.LibDotPlain.lean ====
/-
  A plain matrix product, read at an entry.

  When an [M, K] operand is contracted with a [K, N] operand along the second axis of the first and the first axis of
  the second — the product A · B — the entry (i, j) of the [M, N] result is the sum over k of A (i, k) times B (k, j).
  The contraction's own index type is re-indexed by its one coordinate; the four coordinate facts about the dimension
  numbers are hypotheses, each a computation at literal dimension numbers.
-/
import Idealize.ShloMosaic.PureOps.Ideal
import Idealize.ShloMosaic.Lib.ValueIdx

noncomputable section

open scoped BigOperators

namespace Cert.Lib.DotPlain

open Idealize.ShloMosaic Idealize.ShloMosaic.ValueIdx

/-- A contraction of an [M, K] by a [K, N] operand along the inner axes, at (i, j): the sum over k of
    left (i, k) times right (k, j). -/
theorem dot_sum_nn {M K N : Nat} (d : DotDims ⟨2, ![M, K]⟩ ⟨2, ![K, N]⟩ ⟨2, ![M, N]⟩) (hr : d.contr.rank = 1)
    (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : (⟨2, ![M, K]⟩ : Shape).Idx → EReal) (rhs : (⟨2, ![K, N]⟩ : Shape).Idx → EReal) (i : Fin M) (j : Fin N) :
    ∑ k : d.contr.Idx, lhs (d.lhsIdx (ix2 i j) k) * rhs (d.rhsIdx (ix2 i j) k) = ∑ k : Fin K, lhs (ix2 i k) * rhs (ix2 k j) := by
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.Lib.DotPlain

end
-- ==== Proof.Payload.lean ====
/-
  The kernel body's three payloads, read at an entry, at the ideal instance.

  Every matrix product in the body accumulates into a zero block, so at an entry it is a plain sum of products: the
  composed matrix contracts Ws1's columns with Wt0's rows (A · B); the composed bias and the three layers contract the
  second axis of both operands (A · Bᵀ).  A bias arrives as a [1, 128] block — the host reshaped the 128-vector — and
  is broadcast down the 20000 rows of the block; the rectifier is a maximum with a broadcast zero.  Put together, the
  output block's payload at (p, q), over the scratch contents the first point computes, is the fused chain
  (`Spec.fused`) of row `p` of the input block at output feature `q`.
-/
import proofs.«124410_g78271484003207_cont_sun_c4_201_22_alg».proof.Proof.Gen.KernelIdeal.Skeleton
import proofs.«124410_g78271484003207_cont_sun_c4_201_22_alg».proof.Proof.Spec
import proofs.«124410_g78271484003207_cont_sun_c4_201_22_alg».proof.Proof.LibDotTransposed
import proofs.«124410_g78271484003207_cont_sun_c4_201_22_alg».proof.Proof.LibDotPlain
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.Spec

/-! ## The three contractions' dimension numbers, coordinate by coordinate -/

theorem big_l0 (j : S20000x128.Idx) (q : dot_S20000x128_S128x128_S20000x128_1_1_0_0_n_n.contr.Idx) : (dot_S20000x128_S128x128_S20000x128_1_1_0_0_n_n.lhsIdx j q 0).val = (j 0).val := by
  unfold DotDims.lhsIdx
  rw [dif_neg (show ¬(0 : Fin S20000x128.rank) ∈ dot_S20000x128_S128x128_S20000x128_1_1_0_0_n_n.lhsBatch by decide), dif_pos (show (0 : Fin S20000x128.rank) ∈ dot_S20000x128_S128x128_S20000x128_1_1_0_0_n_n.lhsNonContracting by decide)]
  rfl
theorem big_l1 (j : S20000x128.Idx) (q : dot_S20000x128_S128x128_S20000x128_1_1_0_0_n_n.contr.Idx) : (dot_S20000x128_S128x128_S20000x128_1_1_0_0_n_n.lhsIdx j q 1).val = (q ⟨0, by decide⟩).val :=
  dot_S20000x128_S128x128_S20000x128_1_1_0_0_n_n.lhsIdx_val_of_single rfl j q
theorem big_r0 (j : S20000x128.Idx) (q : dot_S20000x128_S128x128_S20000x128_1_1_0_0_n_n.contr.Idx) : (dot_S20000x128_S128x128_S20000x128_1_1_0_0_n_n.rhsIdx j q 0).val = (j 1).val := by
  unfold DotDims.rhsIdx
  rw [dif_neg (show ¬(0 : Fin S128x128.rank) ∈ dot_S20000x128_S128x128_S20000x128_1_1_0_0_n_n.rhsBatch by decide), dif_pos (show (0 : Fin S128x128.rank) ∈ dot_S20000x128_S128x128_S20000x128_1_1_0_0_n_n.rhsNonContracting by decide)]
  rfl
theorem big_r1 (j : S20000x128.Idx) (q : dot_S20000x128_S128x128_S20000x128_1_1_0_0_n_n.contr.Idx) : (dot_S20000x128_S128x128_S20000x128_1_1_0_0_n_n.rhsIdx j q 1).val = (q ⟨0, by decide⟩).val :=
  dot_S20000x128_S128x128_S20000x128_1_1_0_0_n_n.rhsIdx_val_of_single rfl j q

theorem row_l0 (j : S1x128.Idx) (q : dot_S1x128_S128x128_S1x128_1_1_0_0_n_n.contr.Idx) : (dot_S1x128_S128x128_S1x128_1_1_0_0_n_n.lhsIdx j q 0).val = (j 0).val := by
  unfold DotDims.lhsIdx
  rw [dif_neg (show ¬(0 : Fin S1x128.rank) ∈ dot_S1x128_S128x128_S1x128_1_1_0_0_n_n.lhsBatch by decide), dif_pos (show (0 : Fin S1x128.rank) ∈ dot_S1x128_S128x128_S1x128_1_1_0_0_n_n.lhsNonContracting by decide)]
  rfl
theorem row_l1 (j : S1x128.Idx) (q : dot_S1x128_S128x128_S1x128_1_1_0_0_n_n.contr.Idx) : (dot_S1x128_S128x128_S1x128_1_1_0_0_n_n.lhsIdx j q 1).val = (q ⟨0, by decide⟩).val :=
  dot_S1x128_S128x128_S1x128_1_1_0_0_n_n.lhsIdx_val_of_single rfl j q
theorem row_r0 (j : S1x128.Idx) (q : dot_S1x128_S128x128_S1x128_1_1_0_0_n_n.contr.Idx) : (dot_S1x128_S128x128_S1x128_1_1_0_0_n_n.rhsIdx j q 0).val = (j 1).val := by
  unfold DotDims.rhsIdx
  rw [dif_neg (show ¬(0 : Fin S128x128.rank) ∈ dot_S1x128_S128x128_S1x128_1_1_0_0_n_n.rhsBatch by decide), dif_pos (show (0 : Fin S128x128.rank) ∈ dot_S1x128_S128x128_S1x128_1_1_0_0_n_n.rhsNonContracting by decide)]
  rfl
theorem row_r1 (j : S1x128.Idx) (q : dot_S1x128_S128x128_S1x128_1_1_0_0_n_n.contr.Idx) : (dot_S1x128_S128x128_S1x128_1_1_0_0_n_n.rhsIdx j q 1).val = (q ⟨0, by decide⟩).val :=
  dot_S1x128_S128x128_S1x128_1_1_0_0_n_n.rhsIdx_val_of_single rfl j q

theorem sq_l0 (j : S128x128.Idx) (q : dot_S128x128_S128x128_S128x128_1_0_0_1_n_n.contr.Idx) : (dot_S128x128_S128x128_S128x128_1_0_0_1_n_n.lhsIdx j q 0).val = (j 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem sq_l1 (j : S128x128.Idx) (q : dot_S128x128_S128x128_S128x128_1_0_0_1_n_n.contr.Idx) : (dot_S128x128_S128x128_S128x128_1_0_0_1_n_n.lhsIdx j q 1).val = (q ⟨0, by decide⟩).val :=
  dot_S128x128_S128x128_S128x128_1_0_0_1_n_n.lhsIdx_val_of_single rfl j q
theorem sq_r0 (j : S128x128.Idx) (q : dot_S128x128_S128x128_S128x128_1_0_0_1_n_n.contr.Idx) : (dot_S128x128_S128x128_S128x128_1_0_0_1_n_n.rhsIdx j q 0).val = (q ⟨0, by decide⟩).val :=
  dot_S128x128_S128x128_S128x128_1_0_0_1_n_n.rhsIdx_val_of_single rfl j q
theorem sq_r1 (j : S128x128.Idx) (q : dot_S128x128_S128x128_S128x128_1_0_0_1_n_n.contr.Idx) : (dot_S128x128_S128x128_S128x128_1_0_0_1_n_n.rhsIdx j q 1).val = (j 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-! ## A bias as the kernel sees it -/

/-- The host's reshape of a 128-vector to a [1, 128] block. -/
def asRow (b : FVec Ideal S128 .f32) : FVec Ideal S1x128 .f32 := shapeCast S1x128 b shapeCasts_S128_S1x128

theorem asRow_apply (b : FVec Ideal S128 .f32) (q : Fin 128) : asRow b (ix2 (0 : Fin 1) q) = b (ix1 q) :=
  shapeCast_a_1a_apply b shapeCasts_S128_S1x128 0 q

/-! ## One layer and the rectifier on a [20000, 128] block -/

/-- One layer of the body: the block against the transposed weights, into a zero accumulator, plus the bias row broadcast
    down the block's rows. -/
def layer (y : FVec Ideal S20000x128 .f32) (W : FVec Ideal S128x128 .f32) (b : FVec Ideal S1x128 .f32) : FVec Ideal S20000x128 .f32 :=
  addf (matmul dot_S20000x128_S128x128_S20000x128_1_1_0_0_n_n none y W (constant (F := Ideal) S20000x128 .f32 0x00000000#32))
    (broadcastTo S20000x128 b broadcasts_S1x128_S20000x128)

/-- The body's rectifier: the maximum with a broadcast zero. -/
def rect (y : FVec Ideal S20000x128 .f32) : FVec Ideal S20000x128 .f32 :=
  maximumf y (broadcast S20000x128 (Scalar.ofBits (F := Ideal) .f32 0x00000000#32))

theorem layer_apply (y : FVec Ideal S20000x128 .f32) (W : FVec Ideal S128x128 .f32) (b : FVec Ideal S1x128 .f32)
    (p : Fin 20000) (q : Fin 128) :
    layer y W b (ix2 p q) = (∑ k : Fin 128, y (ix2 p k) * W (ix2 q k)) + b (ix2 (0 : Fin 1) q) := by
  show FloatOps.matmul dot_S20000x128_S128x128_S20000x128_1_1_0_0_n_n none y W (constant (F := Ideal) S20000x128 .f32 0x00000000#32) (ix2 p q)
    + broadcastTo S20000x128 b broadcasts_S1x128_S20000x128 (ix2 p q) = _
  rw [Ideal.matmul_constant_zero_apply, broadcastTo_1b_ab_apply,
    Cert.Lib.DotTransposed.dot_sum_nt dot_S20000x128_S128x128_S20000x128_1_1_0_0_n_n rfl rfl big_l0 big_l1 big_r0 big_r1]

theorem rect_apply (y : FVec Ideal S20000x128 .f32) (i : S20000x128.Idx) : rect y i = relu (y i) := by
  show max (y i) (Ideal.ofBits .f32 0x00000000#32) = max (y i) 0
  rw [Ideal.ofBits_zero_f32]

/-! ## The payloads -/

/-- The first payload at (k, l): the composed matrix Ws1 · Wt0. -/
theorem pay1_apply (Ws1 Wt0 : FVec Ideal S128x128 .f32) (k l : Fin 128) :
    k0_pay1 (F := Ideal) Ws1 Wt0 (ix2 k l) = wmid Ws1 Wt0 k l := by
  unfold k0_pay1
  simp only [shapeCast_self]
  show FloatOps.matmul dot_S128x128_S128x128_S128x128_1_0_0_1_n_n none Ws1 Wt0 (constant (F := Ideal) S128x128 .f32 0x00000000#32) (ix2 k l) = _
  rw [Ideal.matmul_constant_zero_apply, Cert.Lib.DotPlain.dot_sum_nn dot_S128x128_S128x128_S128x128_1_0_0_1_n_n rfl rfl sq_l0 sq_l1 sq_r0 sq_r1]
  rfl

/-- The second payload at (0, k): the composed bias bt0 · Ws1ᵀ + bs1. -/
theorem pay2_apply (bt0 : FVec Ideal S128 .f32) (Ws1 : FVec Ideal S128x128 .f32) (bs1 : FVec Ideal S128 .f32) (k : Fin 128) :
    k0_pay2 (F := Ideal) (asRow bt0) Ws1 (asRow bs1) (ix2 (0 : Fin 1) k) = bmid bt0 Ws1 bs1 k := by
  unfold k0_pay2
  simp only [shapeCast_self]
  show FloatOps.matmul dot_S1x128_S128x128_S1x128_1_1_0_0_n_n none (asRow bt0) Ws1 (constant (F := Ideal) S1x128 .f32 0x00000000#32) (ix2 (0 : Fin 1) k)
    + asRow bs1 (ix2 (0 : Fin 1) k) = _
  rw [Ideal.matmul_constant_zero_apply, Cert.Lib.DotTransposed.dot_sum_nt dot_S1x128_S128x128_S1x128_1_1_0_0_n_n rfl rfl row_l0 row_l1 row_r0 row_r1]
  simp only [asRow_apply]
  rfl

/-- The third payload is three layers with a rectifier after the first and the second. -/
theorem pay3_eq (x : FVec Ideal S20000x128 .f32) (Ws0 : FVec Ideal S128x128 .f32) (bs0 : FVec Ideal S1x128 .f32)
    (wm : FVec Ideal S128x128 .f32) (bm : FVec Ideal S1x128 .f32) (Wt1 : FVec Ideal S128x128 .f32) (bt1 : FVec Ideal S1x128 .f32) :
    k0_pay3 (F := Ideal) x Ws0 bs0 wm bm Wt1 bt1 = layer (rect (layer (rect (layer x Ws0 bs0)) wm bm)) Wt1 bt1 := by
  unfold k0_pay3
  simp only [shapeCast_self]
  rfl

/-- THE OUTPUT BLOCK at (p, q), over the scratch contents the first point computes: the fused chain of row `p` of the
    input block. -/
theorem block_apply (x : FVec Ideal S20000x128 .f32) (Ws0 : FVec Ideal S128x128 .f32) (bs0 : FVec Ideal S128 .f32)
    (Wt0 : FVec Ideal S128x128 .f32) (bt0 : FVec Ideal S128 .f32) (Ws1 : FVec Ideal S128x128 .f32) (bs1 : FVec Ideal S128 .f32)
    (Wt1 : FVec Ideal S128x128 .f32) (bt1 : FVec Ideal S128 .f32) (p : Fin 20000) (q : Fin 128) :
    k0_pay3 (F := Ideal) x Ws0 (asRow bs0) (k0_pay1 (F := Ideal) Ws1 Wt0) (k0_pay2 (F := Ideal) (asRow bt0) Ws1 (asRow bs1)) Wt1 (asRow bt1) (ix2 p q)
      = fused (fun a => x (ix2 p a)) Ws0 bs0 Wt0 bt0 Ws1 bs1 Wt1 bt1 q := by
  rw [pay3_eq]
  simp only [layer_apply, rect_apply, pay1_apply, pay2_apply, asRow_apply]
  rfl

/-- The same against the whole input array: if row `y 0` of the block is row `i 0` of the array and the two column
    coordinates agree, the payload at `y` is the fused whole-array function at `i`. -/
theorem block_value (x : FVec Ideal S20000x128 .f32) (tA : FVec Ideal S100000x128 .f32) (Ws0 : FVec Ideal S128x128 .f32)
    (bs0 : FVec Ideal S128 .f32) (Wt0 : FVec Ideal S128x128 .f32) (bt0 : FVec Ideal S128 .f32) (Ws1 : FVec Ideal S128x128 .f32)
    (bs1 : FVec Ideal S128 .f32) (Wt1 : FVec Ideal S128x128 .f32) (bt1 : FVec Ideal S128 .f32) (y : S20000x128.Idx)
    (i : S100000x128.Idx) (hx : ∀ a : Fin 128, x (ix2 (y 0) a) = tA (ix2 (i 0) a)) (hq : i 1 = y 1) :
    k0_pay3 (F := Ideal) x Ws0 (asRow bs0) (k0_pay1 (F := Ideal) Ws1 Wt0) (k0_pay2 (F := Ideal) (asRow bt0) Ws1 (asRow bs1)) Wt1 (asRow bt1) y
      = fusedResult tA Ws0 bs0 Wt0 bt0 Ws1 bs1 Wt1 bt1 i := by
  obtain ⟨p, q, rfl⟩ : ∃ (p : Fin 20000) (q : Fin 128), y = ix2 p q := ⟨y 0, y 1, eq_ix2 y⟩
  rw [block_apply]
  show fused (fun a => x (ix2 p a)) Ws0 bs0 Wt0 bt0 Ws1 bs1 Wt1 bt1 q
    = fused (fun a => tA (ix2 (i 0) a)) Ws0 bs0 Wt0 bt0 Ws1 bs1 Wt1 bt1 (i 1)
  rw [hq]
  exact congrArg (fun f => fused f Ws0 bs0 Wt0 bt0 Ws1 bs1 Wt1 bt1 q) (funext hx)

end Cert.KernelIdeal.Payload

end
-- ==== Proof.KernelValue.lean ====
/-
  What the kernel leaves in its result array, as one function of the argument arrays.

  The grid has five points; point `t` reads rows 20000·t … 20000·t + 19999 of the input and writes the same rows of the
  result.  Every other window (the four weight matrices, and the four biases the host has reshaped to [1, 128]) has one
  block, the whole array, at every point.  The first point computes the composed matrix and the composed bias into the
  two scratch buffers; no later point stores into them, so by induction on the point they hold the same two values
  throughout.  Hence at every point the block written back is the output payload over the point's input rows, the
  weights, and those two scratch values — which, entry by entry, is the fused chain of the corresponding input row
  (`Spec.fusedResult` read through the point's block).  The five blocks tile the result array (row `r` belongs to
  point `r / 20000`), so after the run the array is `Spec.fusedResult` of the arguments.
-/
import proofs.«124410_g78271484003207_cont_sun_c4_201_22_alg».proof.Proof.Gen.KernelIdeal.Value
import proofs.«124410_g78271484003207_cont_sun_c4_201_22_alg».proof.Proof.Pieces
import proofs.«124410_g78271484003207_cont_sun_c4_201_22_alg».proof.Proof.Payload
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.Pipeline (Dat)
open Cert.Spec Cert.KernelIdeal.Payload

variable (m : (ℓ : Loc nD τ sig) → Buf (Elt Ideal) ℓ) (ρ : Dev nD → PrngReg)

/-! ## The windows' blocks -/

/-- The index maps, decided over the five points: the input's and the result's block row is the point, their block
    column is 0, and every other window stays at block (0, 0). -/
theorem idx_facts : ∀ t : Fin cfg0.N,
    win0_0.index t (0 : Fin 2) = t.val ∧ win0_0.index t (1 : Fin 2) = 0
    ∧ win0_9.index t (0 : Fin 2) = t.val ∧ win0_9.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) :=
  (by decide +kernel : ∀ t : Fin grid0.N, _)

/-- Window 1's one block is its whole array, at every point. -/
theorem blk_w1 (c : Dev nD) (t : Fin cfg0.N) : (iblk m c 1 t : Vec Ideal S128x128 .f32) = V m c main_arg1 := by
  have h := (idx_facts t).2.2.2.2.1
  funext j
  unfold iblk
  rw [View.read_apply]
  refine congrArg (V m c main_arg1) (funext fun a => Fin.ext ?_)
  match a with
  | ⟨0, _⟩ => show win0_1.index t 0 * 128 + 1 * (j 0).val = (j 0).val; rw [h 0]; omega
  | ⟨1, _⟩ => show win0_1.index t 1 * 128 + 1 * (j 1).val = (j 1).val; rw [h 1]; omega

/-- Window 2's one block is its whole array, at every point. -/
theorem blk_w2 (c : Dev nD) (t : Fin cfg0.N) : (iblk m c 2 t : Vec Ideal S1x128 .f32) = V m c main_call0_v0 := by
  have h := (idx_facts t).2.2.2.2.2.1
  funext j
  unfold iblk
  rw [View.read_apply]
  refine congrArg (V m c main_call0_v0) (funext fun a => Fin.ext ?_)
  match a with
  | ⟨0, _⟩ => show win0_2.index t 0 * 1 + 1 * (j 0).val = (j 0).val; rw [h 0]; omega
  | ⟨1, _⟩ => show win0_2.index t 1 * 128 + 1 * (j 1).val = (j 1).val; rw [h 1]; omega

/-- Window 3's one block is its whole array, at every point. -/
theorem blk_w3 (c : Dev nD) (t : Fin cfg0.N) : (iblk m c 3 t : Vec Ideal S128x128 .f32) = V m c main_arg3 := by
  have h := (idx_facts t).2.2.2.2.2.2.1
  funext j
  unfold iblk
  rw [View.read_apply]
  refine congrArg (V m c main_arg3) (funext fun a => Fin.ext ?_)
  match a with
  | ⟨0, _⟩ => show win0_3.index t 0 * 128 + 1 * (j 0).val = (j 0).val; rw [h 0]; omega
  | ⟨1, _⟩ => show win0_3.index t 1 * 128 + 1 * (j 1).val = (j 1).val; rw [h 1]; omega

/-- Window 4's one block is its whole array, at every point. -/
theorem blk_w4 (c : Dev nD) (t : Fin cfg0.N) : (iblk m c 4 t : Vec Ideal S1x128 .f32) = V m c main_call0_v1 := by
  have h := (idx_facts t).2.2.2.2.2.2.2.1
  funext j
  unfold iblk
  rw [View.read_apply]
  refine congrArg (V m c main_call0_v1) (funext fun a => Fin.ext ?_)
  match a with
  | ⟨0, _⟩ => show win0_4.index t 0 * 1 + 1 * (j 0).val = (j 0).val; rw [h 0]; omega
  | ⟨1, _⟩ => show win0_4.index t 1 * 128 + 1 * (j 1).val = (j 1).val; rw [h 1]; omega

/-- Window 5's one block is its whole array, at every point. -/
theorem blk_w5 (c : Dev nD) (t : Fin cfg0.N) : (iblk m c 5 t : Vec Ideal S128x128 .f32) = V m c main_arg5 := by
  have h := (idx_facts t).2.2.2.2.2.2.2.2.1
  funext j
  unfold iblk
  rw [View.read_apply]
  refine congrArg (V m c main_arg5) (funext fun a => Fin.ext ?_)
  match a with
  | ⟨0, _⟩ => show win0_5.index t 0 * 128 + 1 * (j 0).val = (j 0).val; rw [h 0]; omega
  | ⟨1, _⟩ => show win0_5.index t 1 * 128 + 1 * (j 1).val = (j 1).val; rw [h 1]; omega

/-- Window 6's one block is its whole array, at every point. -/
theorem blk_w6 (c : Dev nD) (t : Fin cfg0.N) : (iblk m c 6 t : Vec Ideal S1x128 .f32) = V m c main_call0_v2 := by
  have h := (idx_facts t).2.2.2.2.2.2.2.2.2.1
  funext j
  unfold iblk
  rw [View.read_apply]
  refine congrArg (V m c main_call0_v2) (funext fun a => Fin.ext ?_)
  match a with
  | ⟨0, _⟩ => show win0_6.index t 0 * 1 + 1 * (j 0).val = (j 0).val; rw [h 0]; omega
  | ⟨1, _⟩ => show win0_6.index t 1 * 128 + 1 * (j 1).val = (j 1).val; rw [h 1]; omega

/-- Window 7's one block is its whole array, at every point. -/
theorem blk_w7 (c : Dev nD) (t : Fin cfg0.N) : (iblk m c 7 t : Vec Ideal S128x128 .f32) = V m c main_arg7 := by
  have h := (idx_facts t).2.2.2.2.2.2.2.2.2.2.1
  funext j
  unfold iblk
  rw [View.read_apply]
  refine congrArg (V m c main_arg7) (funext fun a => Fin.ext ?_)
  match a with
  | ⟨0, _⟩ => show win0_7.index t 0 * 128 + 1 * (j 0).val = (j 0).val; rw [h 0]; omega
  | ⟨1, _⟩ => show win0_7.index t 1 * 128 + 1 * (j 1).val = (j 1).val; rw [h 1]; omega

/-- Window 8's one block is its whole array, at every point. -/
theorem blk_w8 (c : Dev nD) (t : Fin cfg0.N) : (iblk m c 8 t : Vec Ideal S1x128 .f32) = V m c main_call0_v3 := by
  have h := (idx_facts t).2.2.2.2.2.2.2.2.2.2.2
  funext j
  unfold iblk
  rw [View.read_apply]
  refine congrArg (V m c main_call0_v3) (funext fun a => Fin.ext ?_)
  match a with
  | ⟨0, _⟩ => show win0_8.index t 0 * 1 + 1 * (j 0).val = (j 0).val; rw [h 0]; omega
  | ⟨1, _⟩ => show win0_8.index t 1 * 128 + 1 * (j 1).val = (j 1).val; rw [h 1]; omega

/-- Row `y 0` of the input block at point `t` is the row of the input array that the result's block at `t` puts `y` on. -/
theorem x_rows (c : Dev nD) (t : Fin cfg0.N) (y : S20000x128.Idx) (a : Fin 128) :
    (iblk m c 0 t : Vec Ideal S20000x128 .f32) (ix2 (y 0) a)
      = V m c main_arg0 (ix2 ((((cfg0.win 9).blk t).view.emb y) 0) a) := by
  obtain ⟨e00, e01, e90, -⟩ := idx_facts t
  unfold iblk
  rw [View.read_apply]
  refine congrArg (V m c main_arg0) (funext fun b => Fin.ext ?_)
  match b with
  | ⟨0, _⟩ => show win0_0.index t 0 * 20000 + 1 * (y 0).val = win0_9.index t 0 * 20000 + 1 * (y 0).val; rw [e00, e90]
  | ⟨1, _⟩ => show win0_0.index t 1 * 128 + 1 * a.val = a.val; rw [e01]; omega

/-- The result's block keeps the column coordinate. -/
theorem out_col (t : Fin cfg0.N) (y : S20000x128.Idx) : (((cfg0.win 9).blk t).view.emb y) 1 = y 1 := by
  obtain ⟨-, -, -, e91, -⟩ := idx_facts t
  apply Fin.ext
  show win0_9.index t 1 * 128 + 1 * (y 1).val = (y 1).val
  rw [e91]; omega

/-! ## The biases as the region finds them: the host's reshapes -/

theorem V_bias0 (c : Dev nD) : (V m c main_call0_v0 : S1x128.Idx → EReal) = asRow (m ((c : Thread nD τ).loc main_arg2)) := by
  dsimp only [Gen.V, Gen.hostOps0]; after_results; rfl

theorem V_bias1 (c : Dev nD) : (V m c main_call0_v1 : S1x128.Idx → EReal) = asRow (m ((c : Thread nD τ).loc main_arg4)) := by
  dsimp only [Gen.V, Gen.hostOps0]; after_results; rfl

theorem V_bias2 (c : Dev nD) : (V m c main_call0_v2 : S1x128.Idx → EReal) = asRow (m ((c : Thread nD τ).loc main_arg6)) := by
  dsimp only [Gen.V, Gen.hostOps0]; after_results; rfl

theorem V_bias3 (c : Dev nD) : (V m c main_call0_v3 : S1x128.Idx → EReal) = asRow (m ((c : Thread nD τ).loc main_arg8)) := by
  dsimp only [Gen.V, Gen.hostOps0]; after_results; rfl

/-! ## The scratch buffers hold the composed matrix and bias after every point -/

theorem scratch_inv (c : Dev nD) : ∀ (n : ℕ) (hn : n < cfg0.N),
    (outsAt0 m c n hn).2.1 = k0_pay1 (F := Ideal) (V m c main_arg5) (V m c main_arg3)
    ∧ (outsAt0 m c n hn).2.2 = k0_pay2 (F := Ideal) (V m c main_call0_v1) (V m c main_arg5) (V m c main_call0_v2)
  | 0, hn => by
    have h0 : (⟨0, hn⟩ : Fin cfg0.N).val % 5 = 0 := rfl
    rw [show outsAt0 m c 0 hn = _ from outsAt0_A m c ⟨0, hn⟩ h0]
    dsimp only
    refine ⟨(Pieces.scratch0_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)).trans ?_,
      (Pieces.scratch1_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)).trans ?_⟩
    · rw [blk_w5 m c ⟨0, hn⟩, blk_w3 m c ⟨0, hn⟩]
    · rw [blk_w4 m c ⟨0, hn⟩, blk_w5 m c ⟨0, hn⟩, blk_w6 m c ⟨0, hn⟩]
  | n + 1, hn => by
    have hN : cfg0.N = 5 := N_0
    have hB : ¬(⟨n + 1, hn⟩ : Fin cfg0.N).val % 5 = 0 := by dsimp only; omega
    rw [show outsAt0 m c (n + 1) hn = _ from outsAt0_B m c ⟨n + 1, hn⟩ hB]
    dsimp only
    unfold sout0_B_0 sout0_B_1
    exact scratch_inv c n (Nat.lt_of_succ_lt hn)

/-! ## What each point writes back -/

/-- At every point the block written back is the output payload over the point's input rows and the two composed values. -/
theorem flushed_pay (c : Dev nD) (t : Fin cfg0.N) :
    (dats m 0 c).flushed 9 t = (cfg0.win 9).cut (grid0.coords t)
      (k0_pay3 (F := Ideal) (iblk m c 0 t) (V m c main_arg1) (V m c main_call0_v0)
        (k0_pay1 (F := Ideal) (V m c main_arg5) (V m c main_arg3))
        (k0_pay2 (F := Ideal) (V m c main_call0_v1) (V m c main_arg5) (V m c main_call0_v2))
        (V m c main_arg7) (V m c main_call0_v3)) := by
  by_cases h0 : t.val % 5 = 0
  · rw [Value.flushed9_A m c t h0]
    refine congrArg ((cfg0.win 9).cut (grid0.coords t)) ?_
    refine (Pieces.out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)).trans ?_
    rw [blk_w1 m c t, blk_w2 m c t, blk_w3 m c t, blk_w4 m c t, blk_w5 m c t, blk_w6 m c t, blk_w7 m c t, blk_w8 m c t]
  · rw [Value.flushed9_B m c t h0]
    refine congrArg ((cfg0.win 9).cut (grid0.coords t)) ?_
    refine (Pieces.out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2).trans ?_
    rw [(scratch_inv m c (t.val - 1) (Nat.lt_of_le_of_lt (Nat.sub_le _ _) t.isLt)).1,
      (scratch_inv m c (t.val - 1) (Nat.lt_of_le_of_lt (Nat.sub_le _ _) t.isLt)).2,
      blk_w1 m c t, blk_w2 m c t, blk_w7 m c t, blk_w8 m c t]

/-- The result array the kernel computes: the fused chain of every input row. -/
def kres (c : Dev nD) : Buf (Elt Ideal) ((c : Thread nD τ).loc main_v0) :=
  fusedResult (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- WHAT POINT `t` WRITES BACK is block `t` of that array. -/
theorem flushed_eq (c : Dev nD) (t : Fin cfg0.N) :
    (dats m 0 c).flushed 9 t = ((cfg0.win 9).blk t).view.read (Elt Ideal) (kres m c) := by
  rw [flushed_pay m c t, V_bias0 m c, V_bias1 m c, V_bias2 m c, V_bias3 m c, V_main_arg1 m c, V_main_arg3 m c,
    V_main_arg5 m c, V_main_arg7 m c]
  funext j
  show k0_pay3 (F := Ideal) (iblk m c 0 t) (m ((c : Thread nD τ).loc main_arg1)) (asRow (m ((c : Thread nD τ).loc main_arg2)))
      (k0_pay1 (F := Ideal) (m ((c : Thread nD τ).loc main_arg5)) (m ((c : Thread nD τ).loc main_arg3)))
      (k0_pay2 (F := Ideal) (asRow (m ((c : Thread nD τ).loc main_arg4))) (m ((c : Thread nD τ).loc main_arg5)) (asRow (m ((c : Thread nD τ).loc main_arg6))))
      (m ((c : Thread nD τ).loc main_arg7)) (asRow (m ((c : Thread nD τ).loc main_arg8))) j
    = kres m c (((cfg0.win 9).blk t).view.emb j)
  refine block_value (iblk m c 0 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
    j (((cfg0.win 9).blk t).view.emb j) (fun a => ?_) (out_col t j)
  rw [x_rows m c t j a, V_main_arg0 m c]

/-! ## The blocks tile the result array -/

/-- An index of the result array is in point `t`'s block iff each coordinate is in the block's range on its axis. -/
theorem mem_blk (t : Fin cfg0.N) (i : S100000x128.Idx) :
    i ∈ ((cfg0.win 9).blk t).view.set ↔ ∀ a : Fin 2, win0_9.index t a * S20000x128.size a ≤ (i a).val
      ∧ (i a).val < win0_9.index t a * S20000x128.size a + S20000x128.size a := by
  show i ∈ ((View.whole main_v0).slice (win0_9.rect t)).set ↔ _
  rw [View.set_slice_whole, Rect.mem_set_unit]
  exact Iff.rfl

/-- Row `r` of the result is in the block of point `r / 20000`. -/
theorem cover (i : S100000x128.Idx) : ∃ t : Fin cfg0.N, (cfg0.win 9).flush t = true ∧ i ∈ ((cfg0.win 9).blk t).view.set := by
  have hN : cfg0.N = 5 := N_0
  have hi0 : (i 0).val < 100000 := (i 0).isLt
  have hi1 : (i 1).val < 128 := (i 1).isLt
  refine ⟨⟨(i 0).val / 20000, by omega⟩, flush0_9 _, ?_⟩
  rw [mem_blk]
  obtain ⟨-, -, e90, e91, -⟩ := idx_facts ⟨(i 0).val / 20000, by omega⟩
  intro a
  match a with
  | ⟨0, _⟩ =>
    show win0_9.index _ (0 : Fin 2) * 20000 ≤ (i 0).val ∧ (i 0).val < win0_9.index _ (0 : Fin 2) * 20000 + 20000
    rw [e90]; dsimp only; omega
  | ⟨1, _⟩ =>
    show win0_9.index _ (1 : Fin 2) * 128 ≤ (i 1).val ∧ (i 1).val < win0_9.index _ (1 : Fin 2) * 128 + 128
    rw [e91]; omega

/-- THE RESULT ARRAY after the run. -/
theorem final (c : Dev nD) : (dats m 0 c).arrAt 9 cfg0.N = kres m c :=
  (dats m 0 c).arrAt_eq_of_cover 9 (kres m c) (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v0) = kres m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.KValue

end
-- ==== Proof.Finite.lean ====
/-
  The precondition makes every input entry a real number.

  The precondition is the conjunction, over the nine inputs, of "every entry's absolute value is below +∞".  On the
  extended reals |x| = max x (−x) is +∞ at both infinities, so an entry passing the test is neither: it is a real
  number.  The conjunction is a left-nested chain of nine `and`s of nine whole-array reductions by `and`; each
  reduction being 1 gives the test at every entry.
-/
import proofs.«124410_g78271484003207_cont_sun_c4_201_22_alg».proof.Pre_finite_inputs
import proofs.«124410_g78271484003207_cont_sun_c4_201_22_alg».proof.Proof.Gen.Pre_finite_inputs
import proofs.«124410_g78271484003207_cont_sun_c4_201_22_alg».proof.Proof.LibFiniteReal
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Cert.Lib.FiniteReal

instance : Subsingleton S_.Idx := ⟨fun a b => funext fun d => d.elim0⟩

/-- The word 0x7F800000 is +∞. -/
theorem inf_word : Ideal.ofBits .f32 0x7F800000#32 = ⊤ := by simp [Ideal.ofBits, Ideal.ieee]

/-- An extended real whose absolute value is below +∞ is a real number. -/
theorem isReal_of_test (x : EReal) (h : Ideal.cmp .olt (max x (-x)) (Ideal.ofBits .f32 0x7F800000#32) = 1#1) : IsReal x := by
  rw [inf_word] at h
  induction x using EReal.rec with
  | bot => exact absurd h (by simp [Ideal.cmp])
  | top => exact absurd h (by simp [Ideal.cmp])
  | coe r => exact ⟨r, rfl⟩

/-- One conjunct of the precondition: the whole-array `and` of the entry tests being 1 makes the array real. -/
theorem allReal_of_reduce {s : Shape} {axes : List (Fin s.rank)} (x : FVec Ideal s .f32)
    (bc : S_.BroadcastsInDim s (![] : Fin 0 → Fin s.rank)) (h : s.ReducesTo axes S_) (hu : 0 < S_.numel) (init : IVec S_ 1)
    (e : Host.reduce IntOp.andi (cmpf .olt (Host.absf x) (broadcastInDim s ![] bc (constant (F := Ideal) S_ .f32 0x7F800000#32))) init h hu
      ValueIdx.ix0 = 1#1) : AllReal x := fun i =>
  isReal_of_test (x i) (Host.reduce_andi_all _ init h hu ValueIdx.ix0 e i)

/-- Under the precondition all nine inputs are arrays of real numbers. -/
theorem allReal_of_pre (a0 : FVec Ideal S100000x128 .f32) (a1 : FVec Ideal S128x128 .f32) (a2 : FVec Ideal S128 .f32)
    (a3 : FVec Ideal S128x128 .f32) (a4 : FVec Ideal S128 .f32) (a5 : FVec Ideal S128x128 .f32) (a6 : FVec Ideal S128 .f32)
    (a7 : FVec Ideal S128x128 .f32) (a8 : FVec Ideal S128 .f32)
    (h : fn (F := Ideal) a0 a1 a2 a3 a4 a5 a6 a7 a8 = fun _ => 1#1) :
    AllReal a0 ∧ AllReal a1 ∧ AllReal a2 ∧ AllReal a3 ∧ AllReal a4 ∧ AllReal a5 ∧ AllReal a6 ∧ AllReal a7 ∧ AllReal a8 := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨allReal_of_reduce a0 _ _ _ _ e0, allReal_of_reduce a1 _ _ _ _ e1, allReal_of_reduce a2 _ _ _ _ e2,
    allReal_of_reduce a3 _ _ _ _ e3, allReal_of_reduce a4 _ _ _ _ e4, allReal_of_reduce a5 _ _ _ _ e5,
    allReal_of_reduce a6 _ _ _ _ e6, allReal_of_reduce a7 _ _ _ _ e7, allReal_of_reduce a8 _ _ _ _ e8⟩

end Cert.Pre_finite_inputs.Finite

end
-- ==== Proof.lean ====
/-
  A fused four-layer affine chain over 100000 rows of 128 features, against its plain reference.

  The reference computes, for every row x,   relu (x·Ws0ᵀ + bs0),   then   ·Wt0ᵀ + bt0,   then   relu (·Ws1ᵀ + bs1),
  then   ·Wt1ᵀ + bt1.   The kernel walks the rows in five blocks of 20000; on the first block it composes the second
  and third layers into one — the matrix Ws1·Wt0 and the bias bt0·Ws1ᵀ + bs1, kept in two scratch buffers for the
  remaining blocks — and applies three layers instead of four.

  Over the extended reals the two agree exactly when the composition law
      (h·Wt0ᵀ + bt0)·Ws1ᵀ + bs1  =  h·(Ws1·Wt0)ᵀ + (bt0·Ws1ᵀ + bs1)
  holds, which distributes a product over a sum and exchanges two finite sums: valid on real numbers, not at an
  infinity.  The precondition says every input entry is finite, hence a real number; the rectified first layer of
  real data is real; so the law applies (Spec.lean).  Everything else is re-indexing: the reference's products with a
  transposed matrix and the kernel's contractions along both second axes are the same sums (RefValue.lean,
  Payload.lean), the kernel's blocks tile the result, and its scratch buffers keep the composed values from the first
  block on (KernelValue.lean).  The idealization rewrote nothing in the kernel, so the fourth conjunct is trivial.
-/
import proofs.«124410_g78271484003207_cont_sun_c4_201_22_alg».proof.Defs
import proofs.«124410_g78271484003207_cont_sun_c4_201_22_alg».proof.Proof.Gen.Kernel
import proofs.«124410_g78271484003207_cont_sun_c4_201_22_alg».proof.Proof.Gen.Kernel.Frame
import proofs.«124410_g78271484003207_cont_sun_c4_201_22_alg».proof.Proof.Gen.KernelIdeal
import proofs.«124410_g78271484003207_cont_sun_c4_201_22_alg».proof.Proof.Gen.KernelIdeal.Frame
import proofs.«124410_g78271484003207_cont_sun_c4_201_22_alg».proof.Proof.Gen.KernelIdeal.Value
import proofs.«124410_g78271484003207_cont_sun_c4_201_22_alg».proof.Proof.Gen.ReferenceIdeal
import proofs.«124410_g78271484003207_cont_sun_c4_201_22_alg».proof.Proof.Gen.ReferenceIdeal.Run
import proofs.«124410_g78271484003207_cont_sun_c4_201_22_alg».proof.Proof.Gen.ReferenceIdeal.Read
import proofs.«124410_g78271484003207_cont_sun_c4_201_22_alg».proof.Proof.Gen.Pre_finite_inputs
import proofs.«124410_g78271484003207_cont_sun_c4_201_22_alg».proof.Proof.Spec
import proofs.«124410_g78271484003207_cont_sun_c4_201_22_alg».proof.Proof.RefValue
import proofs.«124410_g78271484003207_cont_sun_c4_201_22_alg».proof.Proof.KernelValue
import proofs.«124410_g78271484003207_cont_sun_c4_201_22_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- On finite inputs the kernel's result array (the fused chain of every row) and the reference's (the chain of every
    row) are one array of extended reals. -/
theorem algebraic : Cert.algebraic_KernelIdeal_ReferenceIdeal := by
  intro m ρ m' ρ' hpre hagree
  refine ⟨fun c => Cert.KernelIdeal.KValue.kres m c, Cert.KernelIdeal.KValue.run m ρ, ?_⟩
  refine (θ_run Cert.ReferenceIdeal.defs _ _).mono (fun _ h c => ⟨(h c).1.trans ?_, (h c).2⟩) (Cert.ReferenceIdeal.Value.run (F := Ideal) m' ρ')
  obtain ⟨r0, r1, r2, r3, r4, r5, r6, -, -⟩ := Cert.Pre_finite_inputs.Finite.allReal_of_pre _ _ _ _ _ _ _ _ _ (hpre c)
  rw [Cert.ReferenceIdeal.Read.val_main_v23_eq, Cert.ReferenceIdeal.RefValue.reference_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
  exact (Cert.Spec.fusedResult_eq_result _ _ _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
